-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x32 : Shape := ⟨2, ![1048576, 32]⟩
abbrev S32x32 : Shape := ⟨2, ![32, 32]⟩
abbrev S32 : Shape := ⟨1, ![32]⟩
abbrev S_ : Shape := ⟨0, ![]⟩

class Facts : Prop where
  bcast_S_S1048576x32 : S_.BroadcastsInDim S1048576x32 (![] : Fin 0 → Fin S1048576x32.rank)
  reducesTo_S1048576x32_S_d0_1 : S1048576x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S1048576x32 .f32) (main_arg1 : FVec F S32x32 .f32) (main_arg2 : FVec F S32 .f32) : IVec S_ 1 :=
  let main_v0 : FVec F S1048576x32 .f32 := Host.absf main_arg0
  let main_cst : FVec F S_ .f32 := constant S_ .f32 0x7F800000#32
  let main_v1 : FVec F S1048576x32 .f32 := broadcastInDim S1048576x32 ![] bcast_S_S1048576x32 main_cst
  let main_v2 : IVec S1048576x32 1 := cmpf .olt main_v0 main_v1
  let main_c : IVec S_ 1 := constantI S_ 1 1#1
  let main_v3 : IVec S_ 1 := (fun x v => Host.reduce IntOp.andi x v reducesTo_S1048576x32_S_d0_1 h_S_) main_v2 main_c
  let main_v4 : FVec F S32x32 .f32 := Host.absf main_arg1
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S1048576x32 : Shape := ⟨2, ![1048576, 32]⟩
abbrev S32x32 : Shape := ⟨2, ![32, 32]⟩
abbrev S32 : Shape := ⟨1, ![32]⟩
abbrev S1x32 : Shape := ⟨2, ![1, 32]⟩
abbrev S8192x32 : Shape := ⟨2, ![8192, 32]⟩

abbrev nBuf : Space → Nat
  | .hbm => 5
  | .vmem => 6
  | .smem => 0
  | _ => 0

abbrev bufTy : (tb : Table) → Fin (tcTables nBuf tb) → BufTy
  | .hbm, ⟨0, _⟩ => ⟨S1048576x32, .f32⟩
  | .hbm, ⟨1, _⟩ => ⟨S32x32, .f32⟩
  | .hbm, ⟨2, _⟩ => ⟨S32, .f32⟩
  | .hbm, ⟨3, _⟩ => ⟨S1x32, .f32⟩
  | .hbm, ⟨4, _⟩ => ⟨S1048576x32, .f32⟩
  | .local _ .vmem, ⟨0, _⟩ => ⟨S8192x32, .f32⟩
  | .local _ .vmem, ⟨1, _⟩ => ⟨S8192x32, .f32⟩
  | .local _ .vmem, ⟨2, _⟩ => ⟨S32x32, .f32⟩
  | .local _ .vmem, ⟨3, _⟩ => ⟨S1x32, .f32⟩
  | .local _ .vmem, ⟨4, _⟩ => ⟨S8192x32, .f32⟩
  | .local _ .vmem, ⟨5, _⟩ => ⟨S8192x32, .f32⟩
  | _, _ => ⟨S1048576x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32_S1x32 : S32.ShapeCasts S1x32
  inb_S8192x32_S8192x32_0_0 : ∀ a, (![0, 0] : Fin 2 → Nat) a + S8192x32.size a ≤ S8192x32.size a
  h_S8192x32 : 0 < S8192x32.numel
  inb_S32x32_S32x32_0_0 : ∀ a, (![0, 0] : Fin 2 → Nat) a + S32x32.size a ≤ S32x32.size a
  h_S32x32 : 0 < S32x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  iota_S32x32_d0_w32 : S32x32.Iotas .tc 32 [0]
  iota_S32x32_d1_w32 : S32x32.Iotas .tc 32 [1]
  bitsLt_bf16_f32 : FTy.bits .bf16 < FTy.bits .f32
  transposes_S32x32_p1_0_S32x32 : S32x32.Transposes [1, 0] S32x32
  broadcasts_S1x32_S8192x32 : S1x32.Broadcasts S8192x32
  dot_S8192x32_S32x32_S8192x32_1_0_0_1_n_n_wf : DotDims.WF S8192x32 S32x32 S8192x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x32.size a ≤ S1048576x32.size a
  hwx0_0 : ∀ i : grid0.Coords, EltTy.bits .f32 = 32 ∨ (Rect.block (s := S1048576x32) S8192x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x32.size a ≤ S1048576x32.size a
  hwx0_3 : ∀ i : grid0.Coords, EltTy.bits .f32 = 32 ∨ (Rect.block (s := S1048576x32) S8192x32.size (cc0_transform_3 i) (hinb0_3 i)).WholeWords (EltTy.packing .f32)

variable [Facts₀]

def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf

abbrev win0_0 : Pipeline.Window sig grid0 :=
  Pipeline.Window.ofSpec (Memref.whole main_arg0) S8192x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8192x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1048576x32 : Shape := ⟨2, ![1048576, 32]⟩
abbrev S32x32 : Shape := ⟨2, ![32, 32]⟩
abbrev S32 : Shape := ⟨1, ![32]⟩
abbrev S_ : Shape := ⟨0, ![]⟩
abbrev S1x32 : Shape := ⟨2, ![1, 32]⟩

abbrev nBuf : Space → Nat
  | .hbm => 16
  | .vmem => 0
  | .smem => 0
  | _ => 0

abbrev bufTy : (tb : Table) → Fin (tcTables nBuf tb) → BufTy
  | .hbm, ⟨0, _⟩ => ⟨S1048576x32, .f32⟩
  | .hbm, ⟨1, _⟩ => ⟨S32x32, .f32⟩
  | .hbm, ⟨2, _⟩ => ⟨S32, .f32⟩
  | .hbm, ⟨3, _⟩ => ⟨S32x32, .i32⟩
  | .hbm, ⟨4, _⟩ => ⟨S_, .i32⟩
  | .hbm, ⟨5, _⟩ => ⟨S32x32, .i32⟩
  | .hbm, ⟨6, _⟩ => ⟨S32x32, .i32⟩
  | .hbm, ⟨7, _⟩ => ⟨S32x32, .i32⟩
  | .hbm, ⟨8, _⟩ => ⟨S32x32, .i1⟩
  | .hbm, ⟨9, _⟩ => ⟨S_, .f32⟩
  | .hbm, ⟨10, _⟩ => ⟨S32x32, .f32⟩
  | .hbm, ⟨11, _⟩ => ⟨S32x32, .f32⟩
  | .hbm, ⟨12, _⟩ => ⟨S1048576x32, .f32⟩
  | .hbm, ⟨13, _⟩ => ⟨S1x32, .f32⟩
  | .hbm, ⟨14, _⟩ => ⟨S1048576x32, .f32⟩
  | .hbm, ⟨15, _⟩ => ⟨S1048576x32, .f32⟩
  | _, _ => ⟨S1048576x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_cst : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]

class Facts₀ : Prop where
  bcast_S_S32x32 : S_.BroadcastsInDim S32x32 (![] : Fin 0 → Fin S32x32.rank)
  bcast_S32_S1x32_1 : S32.BroadcastsInDim S1x32 (![1] : Fin 1 → Fin S1x32.rank)
  bcast_S1x32_S1048576x32_0_1 : S1x32.BroadcastsInDim S1048576x32 (![0, 1] : Fin 2 → Fin S1048576x32.rank)
  dot_S1048576x32_S32x32_S1048576x32_1_1_0_0_n_n_wf : DotDims.WF S1048576x32 S32x32 S1048576x32 [1] [1] [0] [0] [] []

variable [Facts₀]

def dot_S1048576x32_S32x32_S1048576x32_1_1_0_0_n_n : DotDims S1048576x32 S32x32 S1048576x32 where
  lhsContracting := [1]
  rhsContracting := [1]
  lhsNonContracting := [0]
  rhsNonContracting := [0]
  lhsBatch := []
  rhsBatch := []
  wf := dot_S1048576x32_S32x32_S1048576x32_1_1_0_0_n_n_wf

class Facts : Prop extends Facts₀ where

variable [Facts]
-- ==== Proof.TriSpec.lean ====
/-
  The function both programs compute: a lower-triangular linear map of each input row, plus a bias.

  For an input array `x` of 1048576 rows of 32 numbers, a 32 × 32 weight matrix `w` and a bias `b` of
  32 numbers,
      out (n, t) = (∑ k < 32, x (n, k) · L (t, k)) + b t,
  where `L` is `w` with every entry right of the diagonal replaced by zero: `L (t, k) = w (t, k)` when
  `k ≤ t` and `0` otherwise. The comparison `k ≤ t` is the signed comparison of the two coordinates as
  32-bit words, as both programs take it. All arithmetic is that of the extended reals.
-/
import Idealize.ShloMosaic.PureOps.Ideal
import Idealize.ShloMosaic.Lib.ValueIdx

noncomputable section

open Idealize.ShloMosaic Idealize.ShloMosaic.ValueIdx

namespace Cert.TriSpec

/-- Entry `(t, k)` of the weight matrix with its strict upper triangle zeroed: `w (t, k)` where `k ≤ t`, else `0`. -/
def lowerW (w : FVec Ideal ⟨2, ![32, 32]⟩ .f32) (t k : Fin 32) : EReal :=
  Scalar.select (IntOp.cmpi .sle (BitVec.ofNat 32 k.val) (BitVec.ofNat 32 t.val)) (w (ix2 t k))
    (Ideal.ofBits .f32 0x00000000#32)

/-- Row `n` of the input against row `t` of the lower-triangular weights, plus the bias at `t`. -/
def triOut (x : FVec Ideal ⟨2, ![1048576, 32]⟩ .f32) (w : FVec Ideal ⟨2, ![32, 32]⟩ .f32)
    (b : FVec Ideal ⟨1, ![32]⟩ .f32) : FVec Ideal ⟨2, ![1048576, 32]⟩ .f32 :=
  fun i => (∑ k : Fin 32, x (ix2 (i 0) k) * lowerW w (i 1) k) + b (ix1 (i 1))

/-- The same at explicit coordinates. -/
theorem triOut_ix2 (x : FVec Ideal ⟨2, ![1048576, 32]⟩ .f32) (w : FVec Ideal ⟨2, ![32, 32]⟩ .f32)
    (b : FVec Ideal ⟨1, ![32]⟩ .f32) (n : Fin 1048576) (t : Fin 32) :
    triOut x w b (ix2 n t) = (∑ k : Fin 32, x (ix2 n k) * lowerW w t k) + b (ix1 t) := rfl

/-- "`t + 0 ≥ k`" and "`k ≤ t`" are one comparison of 32-bit words. -/
theorem cmpi_sge_add_zero (a c : BitVec 32) : IntOp.cmpi .sge (IntOp.addi a 0#32) c = IntOp.cmpi .sle c a := by
  simp [IntOp.cmpi, IntOp.addi]

end Cert.TriSpec

end
-- ==== Proof.RefIsTri.lean ====
/-
  The reference's result is the triangular map `TriSpec.triOut` of its three arguments.

  The reference forms `tril w` by a select on "row index + 0 ≥ column index", contracts the input with it along the
  second axis of both (so entry (n, t) is the sum over k of x (n, k) · tril w (t, k)), and adds the bias broadcast along
  the rows. Read one operation at a time at an index this is `triOut` term by term; the only rewriting is of the mask's
  comparison, "t + 0 ≥ k" into "k ≤ t".
-/
import proofs.«175509_j6347961664092_1_alg».proof.Proof.Gen.ReferenceIdeal.Read
import proofs.«175509_j6347961664092_1_alg».proof.Proof.TriSpec

noncomputable section

open Idealize.ShloMosaic Idealize.ShloMosaic.ValueIdx

namespace Cert.ReferenceIdeal.RefValue

open Cert.ReferenceIdeal Cert.ReferenceIdeal.Read Cert.TriSpec

/-- The masked weight the reference multiplies by, at `(t, k)`, is the specification's. -/
theorem tril_at (w : FVec Ideal S32x32 .f32) (t k : Fin 32) :
    val_main_v0 (F := Ideal) w (ix2 t k) = lowerW w t k := by
  rw [val_main_v0_apply, val_main_call0_v4_apply, val_main_call0_v2_apply, val_main_call0_v0_apply,
    val_main_call0_v1_apply, val_main_call0_c_apply, val_main_call0_v3_apply, val_main_call0_v5_apply,
    val_main_call0_cst_apply]
  unfold lowerW
  rw [show IntOp.cmpi .sge (IntOp.addi (BitVec.ofNat 32 ((ix2 t k : S32x32.Idx) 0).val) 0#32) (BitVec.ofNat 32 ((ix2 t k : S32x32.Idx) 1).val)
      = IntOp.cmpi .sle (BitVec.ofNat 32 k.val) (BitVec.ofNat 32 t.val) from cmpi_sge_add_zero _ _]
  rfl

/-- The reference's last stage at entry `(n, t)` is `triOut` there. -/
theorem ref_at (x : FVec Ideal S1048576x32 .f32) (w : FVec Ideal S32x32 .f32) (b : FVec Ideal S32 .f32)
    (n : Fin 1048576) (t : Fin 32) : val_main_v4 (F := Ideal) x w b (ix2 n t) = triOut x w b (ix2 n t) := by
  have el : ∀ k : Fin 32, lidx_main_v1 (ix2 n t) k = ix2 n k := fun k =>
    funext fun a => Fin.ext (by match a with | ⟨0, _⟩ => rfl | ⟨1, _⟩ => rfl)
  have er : ∀ k : Fin 32, ridx_main_v1 (ix2 n t) k = ix2 t k := fun k =>
    funext fun a => Fin.ext (by match a with | ⟨0, _⟩ => rfl | ⟨1, _⟩ => rfl)
  have eb : idx_main_v2 (idx_main_v3 (ix2 n t)) = ix1 t :=
    funext fun a => Fin.ext (by match a with | ⟨0, _⟩ => rfl)
  rw [val_main_v4_apply, val_main_v1_apply, val_main_v3_apply, val_main_v2_apply, eb, triOut_ix2]
  simp only [el, er]
  show (∑ k : Fin 32, x (ix2 n k) * val_main_v0 (F := Ideal) w (ix2 t k)) + b (ix1 t) = _
  congr 1
  exact Finset.sum_congr rfl fun k _ => by rw [tril_at]

/-- The reference's last stage, as a function of the three arguments, is `triOut`. -/
theorem ref_eq (x : FVec Ideal S1048576x32 .f32) (w : FVec Ideal S32x32 .f32) (b : FVec Ideal S32 .f32) :
    val_main_v4 (F := Ideal) x w b = triOut x w b := by
  funext i
  obtain ⟨n, t, rfl⟩ : ∃ (n : Fin 1048576) (t : Fin 32), i = ix2 n t := ⟨i 0, i 1, eq_ix2 i⟩
  exact ref_at x w b n t

end Cert.ReferenceIdeal.RefValue

end
-- ==== Proof.BodyAt.lean ====
/-
  What the kernel body stores, read at one entry of its block.

  The body loads a block `x` of 8192 input rows, the whole weight matrix `w` and the bias row `b`, zeroes `w` right of the
  diagonal by a select on "column index ≤ row index", transposes the result, multiplies `x` by it into a zero
  accumulator and adds the bias row to every row. The two narrowings to sixteen bits are the identity on extended
  reals. So entry `(p, q)` of what it stores is `(∑ k, x (p, k) · L (q, k)) + b (0, q)` with `L` the specification's
  masked weights: the transposed operand at `(k, q)` is `L (q, k)`.
-/
import proofs.«175509_j6347961664092_1_alg».proof.Proof.Gen.KernelIdeal.Skeleton
import proofs.«175509_j6347961664092_1_alg».proof.Proof.TriSpec
import Idealize.ShloMosaic.PureOps.Ideal.Laws
import Idealize.ShloMosaic.Lib.ValueIdx
import Idealize.ShloMosaic.Lib.Pipeline.Value
import Idealize.ShloMosaic.Lib.ValueLayout

noncomputable section

open Idealize.ShloMosaic Idealize.ShloMosaic.ValueIdx

namespace Cert.KernelIdeal.Body

open Cert.KernelIdeal Cert.KernelIdeal.Gen Cert.TriSpec

/-! ## The product's operand indices: output entry (p, q), contraction position k ↦ left (p, k), right (k, q) -/

theorem lhs_row (j : S8192x32.Idx) (r : dot_S8192x32_S32x32_S8192x32_1_0_0_1_n_n.contr.Idx) :
    (dot_S8192x32_S32x32_S8192x32_1_0_0_1_n_n.lhsIdx j r 0).val = (j 0).val := by
  unfold DotDims.lhsIdx
  rw [dif_neg (show ¬(0 : Fin S8192x32.rank) ∈ dot_S8192x32_S32x32_S8192x32_1_0_0_1_n_n.lhsBatch by decide),
    dif_pos (show (0 : Fin S8192x32.rank) ∈ dot_S8192x32_S32x32_S8192x32_1_0_0_1_n_n.lhsNonContracting by decide)]
  rfl

theorem lhs_col (j : S8192x32.Idx) (r : dot_S8192x32_S32x32_S8192x32_1_0_0_1_n_n.contr.Idx) :
    (dot_S8192x32_S32x32_S8192x32_1_0_0_1_n_n.lhsIdx j r 1).val = (r ⟨0, by decide⟩).val :=
  dot_S8192x32_S32x32_S8192x32_1_0_0_1_n_n.lhsIdx_val_of_single rfl j r

theorem rhs_row (j : S8192x32.Idx) (r : dot_S8192x32_S32x32_S8192x32_1_0_0_1_n_n.contr.Idx) :
    (dot_S8192x32_S32x32_S8192x32_1_0_0_1_n_n.rhsIdx j r 0).val = (r ⟨0, by decide⟩).val :=
  dot_S8192x32_S32x32_S8192x32_1_0_0_1_n_n.rhsIdx_val_of_single rfl j r

theorem rhs_col (j : S8192x32.Idx) (r : dot_S8192x32_S32x32_S8192x32_1_0_0_1_n_n.contr.Idx) :
    (dot_S8192x32_S32x32_S8192x32_1_0_0_1_n_n.rhsIdx j r 1).val = (j 1).val := by
  unfold DotDims.rhsIdx
  rw [dif_neg (show ¬(1 : Fin S32x32.rank) ∈ dot_S8192x32_S32x32_S8192x32_1_0_0_1_n_n.rhsBatch by decide),
    dif_pos (show (1 : Fin S32x32.rank) ∈ dot_S8192x32_S32x32_S8192x32_1_0_0_1_n_n.rhsNonContracting by decide)]
  rfl

/-- The product into the zero accumulator at `(p, q)`: the sum over `k` of left `(p, k)` times right `(k, q)`. -/
theorem matmul_at (A : FVec Ideal S8192x32 .bf16) (B : FVec Ideal S32x32 .bf16) (p : Fin 8192) (q : Fin 32) :
    matmul dot_S8192x32_S32x32_S8192x32_1_0_0_1_n_n none A B (constant (F := Ideal) S8192x32 .f32 0x00000000#32) (ix2 p q)
      = ∑ k : Fin 32, A (ix2 p k) * B (ix2 k q) := by
  simp only [matmul]
  rw [Ideal.matmul_constant_zero_apply,
    ← Equiv.sum_comp (contrEquiv1 dot_S8192x32_S32x32_S8192x32_1_0_0_1_n_n 32 rfl rfl).symm]
  refine Finset.sum_congr rfl fun k _ => ?_
  have hk := contrEquiv1_symm_val dot_S8192x32_S32x32_S8192x32_1_0_0_1_n_n 32 rfl rfl k
  have el : dot_S8192x32_S32x32_S8192x32_1_0_0_1_n_n.lhsIdx (ix2 p q)
      ((contrEquiv1 dot_S8192x32_S32x32_S8192x32_1_0_0_1_n_n 32 rfl rfl).symm k) = ix2 p k :=
    funext fun a => Fin.ext (by
      match a with
      | ⟨0, _⟩ => exact lhs_row _ _
      | ⟨1, _⟩ => exact (lhs_col _ _).trans hk)
  have er : dot_S8192x32_S32x32_S8192x32_1_0_0_1_n_n.rhsIdx (ix2 p q)
      ((contrEquiv1 dot_S8192x32_S32x32_S8192x32_1_0_0_1_n_n 32 rfl rfl).symm k) = ix2 k q :=
    funext fun a => Fin.ext (by
      match a with
      | ⟨0, _⟩ => exact (rhs_row _ _).trans hk
      | ⟨1, _⟩ => exact rhs_col _ _)
  rw [el, er]

/-- The right operand — the weights masked to "column ≤ row", narrowed and transposed — at `(k, q)` is the
    specification's masked weight `L (q, k)`. -/
theorem maskedT_at (w : Vec Ideal S32x32 .f32) (k q : Fin 32) :
    transpose S32x32 [1, 0]
        (truncf .bf16 (select (cmpi .sle (iota .tc S32x32 32 [1] iota_S32x32_d1_w32) (iota .tc S32x32 32 [0] iota_S32x32_d0_w32)) w
          (broadcast S32x32 (Scalar.ofBits (F := Ideal) .f32 0x00000000#32))) bitsLt_bf16_f32)
        transposes_S32x32_p1_0_S32x32 (ix2 k q)
      = lowerW w q k := by
  rw [transpose_ix2_apply, truncf_apply, select_apply]
  show Scalar.select (IntOp.cmpi .sle (iota .tc S32x32 32 [1] iota_S32x32_d1_w32 (ix2 q k)) (iota .tc S32x32 32 [0] iota_S32x32_d0_w32 (ix2 q k))) _ _ = _
  rw [iota_single_apply, iota_single_apply]
  rfl

/-- THE PAYLOAD AT AN ENTRY: row `p` of the block against row `q` of the masked weights, plus the bias at `q`. -/
theorem pay_at (x : Vec Ideal S8192x32 .f32) (w : Vec Ideal S32x32 .f32) (b : Vec Ideal S1x32 .f32) (p : Fin 8192) (q : Fin 32) :
    k0_pay1 (F := Ideal) x w b (ix2 p q) = (∑ k : Fin 32, x (ix2 p k) * lowerW w q k) + b (ix2 (0 : Fin 1) q) := by
  unfold k0_pay1
  dsimp only
  rw [addf_apply, matmul_at, broadcastTo_1b_ab_apply, shapeCast_self]
  congr 1
  refine Finset.sum_congr rfl fun k _ => ?_
  rw [maskedT_at, truncf_apply]

end Cert.KernelIdeal.Body

end
-- ==== Proof.BlocksToArray.lean ====
/-
  The kernel's whole result array is `TriSpec.triOut` of the three arguments.

  The grid has 128 points. At point `t` the kernel is given rows `8192 t … 8192 t + 8191` of the input, the whole
  32 × 32 weight matrix and the bias re-laid by the host as one row of 32, and writes back rows
  `8192 t … 8192 t + 8191` of the result. Entry `(p, q)` of what it writes is row `p` of its input block against row `q`
  of the masked weights, plus the bias at `q` (`Body.pay_at`); row `p` of the block is row `8192 t + p` of the array, so
  the block written is block `t` of `triOut` (`flushed_eq`). The 128 blocks cover every row of the result (row `r` lies
  in block `r / 8192`), so the array after the run is `triOut` everywhere (`final`, `run`).
-/
import proofs.«175509_j6347961664092_1_alg».proof.Proof.Gen.KernelIdeal.Value
import proofs.«175509_j6347961664092_1_alg».proof.Proof.BodyAt
import Idealize.ShloMosaic.Lib.Pipeline.Value
import Idealize.ShloMosaic.Lib.ValueLayout
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Value Cert.TriSpec

variable (m : (ℓ : Loc nD τ sig) → Buf (Elt Ideal) ℓ) (ρ : Dev nD → PrngReg)

theorem hz : (![0, 0] : Fin 2 → Nat) = fun _ => 0 := funext fun a => by fin_cases a <;> rfl

/-- The bias as the region finds it: the host has re-laid the 32 numbers as one row of 32. -/
theorem bias_row (c : Dev nD) :
    (V m c main_v0 : S1x32.Idx → EReal) = shapeCast S1x32 (m ((c : Thread nD τ).loc main_arg2)) shapeCasts_S32_S1x32 := by
  dsimp only [Gen.V, Gen.hostOps0]; after_results; rfl

/-- The block index maps over the 128 grid points: the input rows and the output rows move together, block `t` at point
    `t`; the weights and the bias row are one block, the same at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the input block at point `t` is row `8192 t + p` of the input array. -/
theorem rows_at (c : Dev nD) (t : Fin cfg0.N) (p : Fin 8192) (k : Fin 32) (n : Fin 1048576) (hn : n.val = 8192 * t.val + p.val) :
    (iblk m c 0 t : Vec Ideal S8192x32 .f32) (ix2 p k) = (V m c main_arg0 : S1048576x32.Idx → EReal) (ix2 n k) := by
  obtain ⟨e0, e1, -⟩ := idx_facts t
  show V m c main_arg0 (((cfg0.win 0).blk t).view.emb (ix2 p k)) = V m c main_arg0 (ix2 n k)
  congr 1
  funext a; apply Fin.ext
  match a with
  | ⟨0, _⟩ => show win0_0.index t (0 : Fin 2) * 8192 + 1 * p.val = n.val; rw [e0, hn]; omega
  | ⟨1, _⟩ => show win0_0.index t (1 : Fin 2) * 32 + 1 * k.val = k.val; rw [e1]; omega

/-- The weight block at every point is the whole weight matrix. -/
theorem weights_eq (c : Dev nD) (t : Fin cfg0.N) :
    (iblk m c 1 t : Vec Ideal S32x32 .f32) = (V m c main_arg1 : S32x32.Idx → EReal) := by
  obtain ⟨-, -, e0, e1, -⟩ := idx_facts t
  funext y
  show V m c main_arg1 (((cfg0.win 1).blk t).view.emb y) = V m c main_arg1 y
  congr 1
  funext a; apply Fin.ext
  match a with
  | ⟨0, _⟩ => show win0_1.index t (0 : Fin 2) * 32 + 1 * (y 0).val = (y 0).val; rw [e0]; omega
  | ⟨1, _⟩ => show win0_1.index t (1 : Fin 2) * 32 + 1 * (y 1).val = (y 1).val; rw [e1]; omega

/-- The bias block at every point is the bias: its one row at `q` is the bias at `q`. -/
theorem bias_at (c : Dev nD) (t : Fin cfg0.N) (q : Fin 32) :
    (iblk m c 2 t : Vec Ideal S1x32 .f32) (ix2 (0 : Fin 1) q) = (m ((c : Thread nD τ).loc main_arg2) : S32.Idx → EReal) (ix1 q) := by
  obtain ⟨-, -, -, -, e0, e1, -⟩ := idx_facts t
  show (V m c main_v0 : S1x32.Idx → EReal) (((cfg0.win 2).blk t).view.emb (ix2 (0 : Fin 1) q)) = _
  rw [bias_row]
  have he : ((cfg0.win 2).blk t).view.emb (ix2 (0 : Fin 1) q) = (ix2 (0 : Fin 1) q : S1x32.Idx) := by
    funext a; apply Fin.ext
    match a with
    | ⟨0, _⟩ => show win0_2.index t (0 : Fin 2) * 1 + 1 * 0 = 0; rw [e0]
    | ⟨1, _⟩ => show win0_2.index t (1 : Fin 2) * 32 + 1 * q.val = q.val; rw [e1]; omega
  rw [he, shapeCast_a_1a_apply]

/-- One entry of what the body stores, from what its three loaded blocks are in terms of the arrays: the entry
    `(p, q)` of the block is entry `(n, q)` of `triOut` when row `p` of the input block is row `n` of the input. -/
theorem entry_eq (X : FVec Ideal S1048576x32 .f32) (W : FVec Ideal S32x32 .f32) (B : FVec Ideal S32 .f32)
    (x : Vec Ideal S8192x32 .f32) (w : Vec Ideal S32x32 .f32) (b : Vec Ideal S1x32 .f32)
    (p : Fin 8192) (q : Fin 32) (n : Fin 1048576)
    (hx : ∀ k : Fin 32, x (ix2 p k) = X (ix2 n k)) (hw : w = W) (hb : ∀ r : Fin 32, b (ix2 (0 : Fin 1) r) = B (ix1 r)) :
    k0_pay1 (F := Ideal) x w b (ix2 p q) = triOut X W B (ix2 n q) := by
  rw [Body.pay_at, triOut_ix2, hw, hb]
  congr 1
  exact Finset.sum_congr rfl fun k _ => by rw [hx]

/-- WHAT POINT `t` WRITES BACK is block `t` of `triOut` of the arrays as the region finds them. -/
theorem flushed_eq (c : Dev nD) (t : Fin cfg0.N) :
    (dats m 0 c).flushed 3 t = ((cfg0.win 3).blk t).view.read (Elt Ideal)
      (triOut (V m c main_arg0) (V m c main_arg1) (m ((c : Thread nD τ).loc main_arg2))) := by
  rw [Value.flushed3]
  unfold out0_3
  rw [View.canon_unit_zero hz]
  simp only [View.ld_unit_zero (S := S8192x32) hz, View.ld_unit_zero (S := S32x32) hz, View.ld_unit_zero (S := S1x32) hz]
  funext j
  obtain ⟨p, q, rfl⟩ : ∃ (p : Fin 8192) (q : Fin 32), j = ix2 p q := ⟨j 0, j 1, eq_ix2 j⟩
  have ht : t.val < 128 := lt_of_lt_of_eq t.isLt N_0
  have hn : 8192 * t.val + p.val < 1048576 := by have := p.isLt; omega
  obtain ⟨-, -, -, -, -, -, e0, e1⟩ := idx_facts t
  have he : ((cfg0.win 3).blk t).view.emb (ix2 p q) = (ix2 (⟨8192 * t.val + p.val, hn⟩ : Fin 1048576) q : S1048576x32.Idx) := by
    funext a; apply Fin.ext
    match a with
    | ⟨0, _⟩ => show win0_3.index t (0 : Fin 2) * 8192 + 1 * p.val = 8192 * t.val + p.val; rw [e0]; omega
    | ⟨1, _⟩ => show win0_3.index t (1 : Fin 2) * 32 + 1 * q.val = q.val; rw [e1]; omega
  show k0_pay1 (F := Ideal) (iblk m c 0 t) (iblk m c 1 t) (iblk m c 2 t) (ix2 p q)
    = triOut (V m c main_arg0) (V m c main_arg1) (m ((c : Thread nD τ).loc main_arg2)) (((cfg0.win 3).blk t).view.emb (ix2 p q))
  rw [he]
  exact entry_eq (V m c main_arg0) (V m c main_arg1) (m ((c : Thread nD τ).loc main_arg2))
    (iblk m c 0 t) (iblk m c 1 t) (iblk m c 2 t) p q ⟨8192 * t.val + p.val, hn⟩
    (fun k => rows_at m c t p k ⟨8192 * t.val + p.val, hn⟩ rfl) (weights_eq m c t) (fun r => bias_at m c t r)

/-- An index of the output array is in point `t`'s block iff each coordinate is in the block's range on its axis. -/
theorem mem_blk (t : Fin cfg0.N) (i : S1048576x32.Idx) :
    i ∈ ((cfg0.win 3).blk t).view.set ↔ ∀ a : Fin 2, win0_3.index t a * S8192x32.size a ≤ (i a).val ∧ (i a).val < win0_3.index t a * S8192x32.size a + S8192x32.size a := by
  show i ∈ ((View.whole main_v1).slice (win0_3.rect t)).set ↔ _
  rw [View.set_slice_whole, Rect.mem_set_unit]
  exact Iff.rfl

/-- Every entry of the output array is in some point's block: row `r` is in block `r / 8192`. -/
theorem cover (i : S1048576x32.Idx) : ∃ t : Fin cfg0.N, (cfg0.win 3).flush t = true ∧ i ∈ ((cfg0.win 3).blk t).view.set := by
  have hi0 : (i 0).val < 1048576 := (i 0).isLt
  have hi1 : (i 1).val < 32 := (i 1).isLt
  have hN : cfg0.N = 128 := N_0
  let t : Fin cfg0.N := ⟨(i 0).val / 8192, by rw [hN]; omega⟩
  obtain ⟨-, -, -, -, -, -, e0, e1⟩ := idx_facts t
  refine ⟨t, flush0_3 t, ?_⟩
  rw [mem_blk]
  intro a
  have ht : t.val = (i 0).val / 8192 := rfl
  match a with
  | ⟨0, _⟩ => show win0_3.index t (0 : Fin 2) * 8192 ≤ (i 0).val ∧ (i 0).val < win0_3.index t (0 : Fin 2) * 8192 + 8192; rw [e0, ht]; omega
  | ⟨1, _⟩ => show win0_3.index t (1 : Fin 2) * 32 ≤ (i 1).val ∧ (i 1).val < win0_3.index t (1 : Fin 2) * 32 + 32; rw [e1]; omega

/-- THE OUTPUT ARRAY after the run is `triOut` of the three arguments. -/
theorem final (c : Dev nD) : (dats m 0 c).arrAt 3 cfg0.N
    = triOut (m ((c : Thread nD τ).loc main_arg0)) (m ((c : Thread nD τ).loc main_arg1)) (m ((c : Thread nD τ).loc main_arg2)) := by
  rw [← V_main_arg0 m c, ← V_main_arg1 m c]
  exact (dats m 0 c).arrAt_eq_of_cover 3 _ (fun t _ => flushed_eq m c t) cover

/-- The kernel's run, read: the result array ends at `triOut` of the arguments, the arguments unchanged. -/
theorem run : θ_run defs (onTc (τ := τ) (main (F := Ideal))) ⟨m, fun _ => 0, ρ⟩ fun r => ∀ c : Dev nD,
      r.2.mem ((c : Thread nD τ).loc main_v1)
        = triOut (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.lean ====
/-
  The kernel and its reference compute one function: a lower-triangular linear map of each input row, plus a bias.

  For x : [1048576, 32], w : [32, 32], b : [32] both programs return
      out (n, t) = (∑ k < 32, x (n, k) · L (t, k)) + b t,     L (t, k) = w (t, k) if k ≤ t, else 0
  (`TriSpec.triOut`), as extended reals.

  * The kernel, at each of 128 grid points, masks `w` to its lower triangle by a select on "column ≤ row", transposes
    it, multiplies a block of 8192 input rows by it into a zero accumulator and adds the bias row; narrowing the operands
    to sixteen bits is the identity on extended reals. Entry by entry this is `triOut` on the block's rows
    (Proof/BodyAt.lean), and the 128 blocks cover the result (Proof/BlocksToArray.lean).
  * The reference masks `w` by a select on "row + 0 ≥ column", contracts `x` with it along the second axis of both and
    adds the broadcast bias: `triOut` again, the two comparisons being the same comparison of 32-bit words
    (Proof/RefIsTri.lean).

  Both sides are the same sum of the same products in the same order, so no law of the extended reals beyond
  reflexivity is needed and the finiteness of the inputs is not used. The three frames are the programs' runs with the
  result forgotten; the idealization rewrote nothing, so `preserves` is `True`.
-/
import proofs.«175509_j6347961664092_1_alg».proof.Defs
import proofs.«175509_j6347961664092_1_alg».proof.Proof.Gen.Kernel
import proofs.«175509_j6347961664092_1_alg».proof.Proof.Gen.Kernel.Skeleton
import proofs.«175509_j6347961664092_1_alg».proof.Proof.Gen.Kernel.Launch
import proofs.«175509_j6347961664092_1_alg».proof.Proof.Gen.Kernel.Points
import proofs.«175509_j6347961664092_1_alg».proof.Proof.Gen.Kernel.Frame
import proofs.«175509_j6347961664092_1_alg».proof.Proof.Gen.KernelIdeal
import proofs.«175509_j6347961664092_1_alg».proof.Proof.Gen.KernelIdeal.Skeleton
import proofs.«175509_j6347961664092_1_alg».proof.Proof.Gen.KernelIdeal.Launch
import proofs.«175509_j6347961664092_1_alg».proof.Proof.Gen.KernelIdeal.Points
import proofs.«175509_j6347961664092_1_alg».proof.Proof.Gen.KernelIdeal.Frame
import proofs.«175509_j6347961664092_1_alg».proof.Proof.Gen.ReferenceIdeal
import proofs.«175509_j6347961664092_1_alg».proof.Proof.Gen.Pre_finite_inputs
import proofs.«175509_j6347961664092_1_alg».proof.Proof.Gen.KernelIdeal.Value
import proofs.«175509_j6347961664092_1_alg».proof.Proof.Gen.ReferenceIdeal.Run
import proofs.«175509_j6347961664092_1_alg».proof.Proof.Gen.ReferenceIdeal.Read
import proofs.«175509_j6347961664092_1_alg».proof.Proof.TriSpec
import proofs.«175509_j6347961664092_1_alg».proof.Proof.RefIsTri
import proofs.«175509_j6347961664092_1_alg».proof.Proof.BodyAt
import proofs.«175509_j6347961664092_1_alg».proof.Proof.BlocksToArray
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- From memories that agree on the three arguments both programs end with the result array at `triOut` of them. -/
theorem algebraic : Cert.algebraic_KernelIdeal_ReferenceIdeal := by
  intro m ρ m' ρ' _ hagree
  refine ⟨fun c => Cert.TriSpec.triOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
